-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x256 : Shape := ⟨4, ![32, 64, 128, 256]⟩
abbrev S32x64 : Shape := ⟨2, ![32, 64]⟩
abbrev S_ : Shape := ⟨0, ![]⟩

class Facts : Prop where
  bcast_S_S32x64x128x256 : S_.BroadcastsInDim S32x64x128x256 (![] : Fin 0 → Fin S32x64x128x256.rank)
  reducesTo_S32x64x128x256_S_d0_1_2_3 : S32x64x128x256.ReducesTo [0, 1, 2, 3] S_
  h_S_ : 0 < S_.numel

variable [Facts]

def fn {F : FTy → Type} [FloatOps F] (main_arg0 : FVec F S32x64x128x256 .f32) (main_arg1 : IVec S32x64 32) : IVec S_ 1 :=
  let main_v0 : FVec F S32x64x128x256 .f32 := Host.absf main_arg0
  let main_cst : FVec F S_ .f32 := constant S_ .f32 0x7F800000#32
  let main_v1 : FVec F S32x64x128x256 .f32 := broadcastInDim S32x64x128x256 ![] bcast_S_S32x64x128x256 main_cst
  let main_v2 : IVec S32x64x128x256 1 := cmpf .olt main_v0 main_v1
  let main_c : IVec S_ 1 := constantI S_ 1 1#1
  let main_v3 : IVec S_ 1 := (fun x v => Host.reduce IntOp.andi x v reducesTo_S32x64x128x256_S_d0_1_2_3 h_S_) main_v2 main_c
  main_v3
-- ==== Kernel.lean ====
abbrev S32x64x128x256 : Shape := ⟨4, ![32, 64, 128, 256]⟩
abbrev S32x64 : Shape := ⟨2, ![32, 64]⟩
abbrev S2048x128x256 : Shape := ⟨3, ![2048, 128, 256]⟩
abbrev S2048x1 : Shape := ⟨2, ![2048, 1]⟩
abbrev S32x128x256 : Shape := ⟨3, ![32, 128, 256]⟩
abbrev S32x1 : Shape := ⟨2, ![32, 1]⟩
abbrev S32x128x1 : Shape := ⟨3, ![32, 128, 1]⟩
abbrev S32x1x1 : Shape := ⟨3, ![32, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x64x128x256, .f32⟩
  | .hbm, ⟨1, _⟩ => ⟨S32x64, .i32⟩
  | .hbm, ⟨2, _⟩ => ⟨S2048x128x256, .f32⟩
  | .hbm, ⟨3, _⟩ => ⟨S2048x1, .i32⟩
  | .hbm, ⟨4, _⟩ => ⟨S2048x128x256, .f32⟩
  | .hbm, ⟨5, _⟩ => ⟨S32x64x128x256, .f32⟩
  | .local _ .vmem, ⟨0, _⟩ => ⟨S32x128x256, .f32⟩
  | .local _ .vmem, ⟨1, _⟩ => ⟨S32x128x256, .f32⟩
  | .local _ .vmem, ⟨2, _⟩ => ⟨S32x1, .i32⟩
  | .local _ .vmem, ⟨3, _⟩ => ⟨S32x1, .i32⟩
  | .local _ .vmem, ⟨4, _⟩ => ⟨S32x128x256, .f32⟩
  | .local _ .vmem, ⟨5, _⟩ => ⟨S32x128x256, .f32⟩
  | _, _ => ⟨S32x64x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x64x128x256_S2048x128x256 : S32x64x128x256.ShapeCasts S2048x128x256
  shapeCasts_S32x64_S2048x1 : S32x64.ShapeCasts S2048x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x128x1_d1_w32 : S32x128x1.Iotas .tc 32 [1]
  shapeCasts_S32x1_S32x1x1 : S32x1.ShapeCasts S32x1x1
  broadcasts_S32x1x1_S32x128x1 : S32x1x1.Broadcasts S32x128x1
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  broadcasts_S32x128x1_S32x128x256 : S32x128x1.Broadcasts S32x128x256
  shapeCasts_S2048x128x256_S32x64x128x256 : S2048x128x256.ShapeCasts S32x64x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S2048x128x256.size a
  hwx0_0 : ∀ i : grid0.Coords, EltTy.bits .f32 = 32 ∨ (Rect.block (s := S2048x128x256) S32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S2048x1.size a
  hwx0_1 : ∀ i : grid0.Coords, EltTy.bits .i32 = 32 ∨ (Rect.block (s := S2048x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x256.size a ≤ S2048x128x256.size a
  hwx0_2 : ∀ i : grid0.Coords, EltTy.bits .f32 = 32 ∨ (Rect.block (s := S2048x128x256) S32x128x256.size (cc0_transform_2 i) (hinb0_2 i)).WholeWords (EltTy.packing .f32)

variable [Facts₀]

abbrev win0_0 : Pipeline.Window sig grid0 :=
  Pipeline.Window.ofSpec (Memref.whole main_v0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S32x64x128x256 : Shape := ⟨4, ![32, 64, 128, 256]⟩
abbrev S32x64 : Shape := ⟨2, ![32, 64]⟩
abbrev S128 : Shape := ⟨1, ![128]⟩
abbrev S1x1x128 : Shape := ⟨3, ![1, 1, 128]⟩
abbrev S32x64x1 : Shape := ⟨3, ![32, 64, 1]⟩
abbrev S32x64x128 : Shape := ⟨3, ![32, 64, 128]⟩
abbrev S32x64x128x1 : Shape := ⟨4, ![32, 64, 128, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32x64x128x256, .f32⟩
  | .hbm, ⟨1, _⟩ => ⟨S32x64, .i32⟩
  | .hbm, ⟨2, _⟩ => ⟨S128, .i32⟩
  | .hbm, ⟨3, _⟩ => ⟨S1x1x128, .i32⟩
  | .hbm, ⟨4, _⟩ => ⟨S32x64x1, .i32⟩
  | .hbm, ⟨5, _⟩ => ⟨S32x64x128, .i32⟩
  | .hbm, ⟨6, _⟩ => ⟨S32x64x128, .i32⟩
  | .hbm, ⟨7, _⟩ => ⟨S32x64x128, .i1⟩
  | .hbm, ⟨8, _⟩ => ⟨S32x64x128x1, .i1⟩
  | .hbm, ⟨9, _⟩ => ⟨S32x64x128x1, .f32⟩
  | .hbm, ⟨10, _⟩ => ⟨S_, .f32⟩
  | .hbm, ⟨11, _⟩ => ⟨S32x64x128x1, .f32⟩
  | .hbm, ⟨12, _⟩ => ⟨S32x64x128x1, .f32⟩
  | .hbm, ⟨13, _⟩ => ⟨S32x64x128x256, .f32⟩
  | .hbm, ⟨14, _⟩ => ⟨S32x64x128x256, .f32⟩
  | _, _ => ⟨S32x64x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S32x64_S32x64x1_0_1 : S32x64.BroadcastsInDim S32x64x1 (![0, 1] : Fin 2 → Fin S32x64x1.rank)
  bcast_S1x1x128_S32x64x128_0_1_2 : S1x1x128.BroadcastsInDim S32x64x128 (![0, 1, 2] : Fin 3 → Fin S32x64x128.rank)
  bcast_S32x64x1_S32x64x128_0_1_2 : S32x64x1.BroadcastsInDim S32x64x128 (![0, 1, 2] : Fin 3 → Fin S32x64x128.rank)
  bcast_S32x64x128_S32x64x128x1_0_1_2 : S32x64x128.BroadcastsInDim S32x64x128x1 (![0, 1, 2] : Fin 3 → Fin S32x64x128x1.rank)
  bcast_S_S32x64x128x1 : S_.BroadcastsInDim S32x64x128x1 (![] : Fin 0 → Fin S32x64x128x1.rank)
  bcast_S32x64x128x1_S32x64x128x256_0_1_2_3 : S32x64x128x1.BroadcastsInDim S32x64x128x256 (![0, 1, 2, 3] : Fin 4 → Fin S32x64x128x256.rank)

variable [Facts₀]

class Facts : Prop extends Facts₀ where

variable [Facts]
-- ==== Proof.Spec.lean ====
/-
  The mathematics of the masked row scale, with no program in sight.

  An array x of shape [32, 64, 128, 256] and a table of signed 32-bit set sizes of shape [32, 64] are given.
  Row (b, t) of x is the [128, 256] slab x[b, t, :, :]; its node n is kept, scaled by one fixed number c, when
  n is below the row's set size as signed words, and is replaced by zero otherwise:

      result[b, t, n, f] = x[b, t, n, f] * (if n <ₛ size[b, t] then c else 0).

  The scale is spelt two ways by the two programs: as a choice between c and 0, and as the product of the
  comparison's bit, read as the number 0 or 1, with c.  `bit_mul` says these agree on the extended reals,
  because 1 * c = c and 0 * c = 0 hold there for every c.  Nothing is asked of x: no distributivity and no
  cancellation is used, so infinite entries are as good as finite ones.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MaskScale

/-- The scale of node `n` in a row whose set size is the signed word `s`: the fixed scale where `n <ₛ s`, zero elsewhere.
    The fixed scale is kept as its binary word; both programs carry the same word, so it is never evaluated. -/
def scaleAt (s : BitVec 32) (n : Nat) : EReal :=
  Scalar.select (IntOp.cmpi .slt (BitVec.ofNat 32 n) s) (Ideal.ofBits .f32 0x3F8CCCCD#32) 0

/-- The result over [32, 64, 128, 256]: every element times the scale of its node in its row. -/
def scaled (x : (⟨4, ![32, 64, 128, 256]⟩ : Shape).Idx → EReal) (size : (⟨2, ![32, 64]⟩ : Shape).Idx → BitVec 32) :
    (⟨4, ![32, 64, 128, 256]⟩ : Shape).Idx → EReal :=
  fun i => x i * scaleAt (size (ix2 (i 0) (i 1))) (i 2).val

/-- The same over the rows laid end to end, [2048, 128, 256] against a [2048, 1] column of set sizes. -/
def scaledRows (x : (⟨3, ![2048, 128, 256]⟩ : Shape).Idx → EReal) (size : (⟨2, ![2048, 1]⟩ : Shape).Idx → BitVec 32) :
    (⟨3, ![2048, 128, 256]⟩ : Shape).Idx → EReal :=
  fun i => x i * scaleAt (size (ix2 (i 0) ⟨0, Nat.one_pos⟩)) (i 1).val

/-- A one-bit word read as the number 0 or 1, times `c`, is the choice between `c` and `0` by that bit. -/
theorem bit_mul (b : BitVec 1) (c : EReal) : ((b.toNat : ℝ) : EReal) * c = Scalar.select b c 0 := by
  by_cases h : b = 1#1
  · subst h
    rw [select_one]
    simp
  · obtain rfl := eq_zero_of_ne_one h
    rw [select_zero]
    simp

end Cert.MaskScale

end
-- ==== Proof.RefRead.lean ====
/-
  The reference at an index.

  The reference builds its scale by layout steps only: the node numbers 0 … 127 along the third axis, the set sizes
  repeated along it, their signed comparison, one more unit axis, the comparison's bit turned into the number 0 or 1
  and multiplied by the fixed scale, and the product repeated along the last axis.  Read at an index (b, t, n, f)
  every layout step is a re-indexing, so the scale there is  bit(n <ₛ size[b, t]) * c,  and the result is x times it.
  `Spec.bit_mul` turns the product with the bit into the choice between c and 0: the reference is `scaled`.
-/
import proofs.«131674_j18098992185823_2_alg».proof.Proof.Gen.ReferenceIdeal.Read
import proofs.«131674_j18098992185823_2_alg».proof.Proof.Spec

noncomputable section

open Idealize.ShloMosaic Idealize.ShloMosaic.ValueIdx

namespace Cert.MaskScale.Ref

open Cert.ReferenceIdeal Cert.ReferenceIdeal.Read Cert.MaskScale

/-- The composed re-indexing from a result index down to the set-size table keeps the first two coordinates. -/
theorem size_idx (i : S32x64x128x256.Idx) :
    idx_main_v2 (idx_main_v4 (idx_main_v6 (idx_main_v10 i))) = ix2 (i 0) (i 1) :=
  funext fun a => Fin.ext (by match a with | ⟨0, _⟩ => rfl | ⟨1, _⟩ => rfl)

/-- The reference's last stage is the masked row scale of its two arguments. -/
theorem reference_eq (x : S32x64x128x256.Idx → EReal) (size : S32x64.Idx → BitVec 32) :
    val_main_v11 (F := Ideal) x size = scaled x size := by
  funext i
  rw [val_main_v11_apply, val_main_v10_apply, val_main_v9_apply, val_main_v7_apply, val_main_v6_apply, val_main_v5_apply,
    val_main_v3_apply, val_main_v1_apply, val_main_v0_apply, val_main_v4_apply, val_main_v2_apply, val_main_v8_apply,
    val_main_cst_apply, size_idx]
  show x i * ((((IntOp.cmpi .slt (BitVec.ofNat 32 (i 2).val) (size (ix2 (i 0) (i 1)))).toNat : ℝ) : EReal)
    * Ideal.ofBits .f32 0x3F8CCCCD#32) = _
  rw [bit_mul]
  rfl

end Cert.MaskScale.Ref

end
-- ==== Proof.Payload.lean ====
/-
  What the kernel body stores, read at an index.

  At one grid point the body holds a block of 32 rows, x of shape [32, 128, 256], and the rows' set sizes as a column
  of shape [32, 1].  It repeats the column along the 128 nodes, compares the node numbers with it as signed words,
  chooses the fixed scale c or zero by the comparison's bit, repeats that along the 256 features and multiplies x by it.
  Read at (r, n, f) every layout step is a re-indexing, so the stored value is

      x[r, n, f] * (if n <ₛ size[r] then c else 0),

  the masked row scale of `Spec` on the block.
-/
import proofs.«131674_j18098992185823_2_alg».proof.Proof.Gen.KernelIdeal.Skeleton
import proofs.«131674_j18098992185823_2_alg».proof.Proof.Spec
import Idealize.ShloMosaic.Lib.Pipeline.Value

noncomputable section

open Idealize.ShloMosaic Idealize.ShloMosaic.ValueIdx

namespace Cert.MaskScale.Kernel

open Cert.KernelIdeal Cert.KernelIdeal.Gen Cert.MaskScale

/-- The column of set sizes, given two more unit axes' worth of casts and repeated along the nodes, read at (r, n, 0)
    is row r's set size. -/
theorem sizeColumn_apply (v0 : IVec S32x1 32) (h1 : S32x1.ShapeCasts S32x1) (h2 : S32x1.ShapeCasts S32x1x1)
    (h3 : S32x1x1.Broadcasts S32x128x1) (r : Fin 32) (n : Fin 128) :
    broadcastTo S32x128x1 (shapeCast S32x1x1 (shapeCast S32x1 v0 h1) h2) h3 (ix3 r n ⟨0, Nat.one_pos⟩)
      = v0 (ix2 r ⟨0, Nat.one_pos⟩) := by
  rw [shapeCast_self]
  refine (broadcastTo_apply _ h3 (ix3 r n ⟨0, Nat.one_pos⟩) (ix3 r ⟨0, Nat.one_pos⟩ ⟨0, Nat.one_pos⟩) (fun a => ?_)).trans ?_
  · match a with
    | ⟨0, _⟩ => show r.val = if (32 : Nat) = 1 then 0 else r.val; rw [if_neg (by decide)]
    | ⟨1, _⟩ => show 0 = if (1 : Nat) = 1 then 0 else n.val; rw [if_pos rfl]
    | ⟨2, _⟩ => show 0 = if (1 : Nat) = 1 then 0 else 0; rw [if_pos rfl]
  · refine shapeCast_apply v0 h2 _ (ix2 r ⟨0, Nat.one_pos⟩) ?_
    rw [Shape.rowMajor_val_two, Shape.rowMajor_val_three]
    show r.val * 1 + 0 = (r.val * 1 + 0) * 1 + 0
    omega

/-- The scale the body builds, read at (r, n, 0): the fixed scale where node n is below row r's set size, zero elsewhere. -/
theorem scale_apply (v0 : IVec S32x1 32) (h1 : S32x1.ShapeCasts S32x1) (h2 : S32x1.ShapeCasts S32x1x1)
    (h3 : S32x1x1.Broadcasts S32x128x1) (h4 : S32x128x1.Iotas .tc 32 [1]) (r : Fin 32) (n : Fin 128) :
    (select (cmpi .slt (iota .tc S32x128x1 32 [1] h4) (broadcastTo S32x128x1 (shapeCast S32x1x1 (shapeCast S32x1 v0 h1) h2) h3))
        (broadcast S32x128x1 (Scalar.ofBits (F := Ideal) .f32 0x3F8CCCCD#32))
        (broadcast S32x128x1 (Scalar.ofBits (F := Ideal) .f32 0x00000000#32)) : FVec Ideal S32x128x1 .f32)
      (ix3 r n ⟨0, Nat.one_pos⟩)
      = scaleAt (v0 (ix2 r ⟨0, Nat.one_pos⟩)) n.val := by
  show Scalar.select (IntOp.cmpi .slt (iota .tc S32x128x1 32 [1] h4 (ix3 r n ⟨0, Nat.one_pos⟩))
      (broadcastTo S32x128x1 (shapeCast S32x1x1 (shapeCast S32x1 v0 h1) h2) h3 (ix3 r n ⟨0, Nat.one_pos⟩)))
    (Ideal.ofBits .f32 0x3F8CCCCD#32) (Ideal.ofBits .f32 0x00000000#32) = _
  rw [iota_single_apply, sizeColumn_apply, Ideal.ofBits_zero_f32]
  rfl

/-- The stored value at (r, n, f) is x there times the scale of node n in row r. -/
theorem payload_apply (v0 : Vec Ideal S32x1 .i32) (v9 : Vec Ideal S32x128x256 .f32) (r : Fin 32) (n : Fin 128) (f : Fin 256) :
    k0_pay1 (F := Ideal) v0 v9 (ix3 r n f) = v9 (ix3 r n f) * scaleAt (v0 (ix2 r ⟨0, Nat.one_pos⟩)) n.val := by
  unfold k0_pay1
  dsimp only
  rw [mulf_apply, shapeCast_self]
  refine congrArg (v9 (ix3 r n f) * ·) ?_
  refine (broadcastTo_apply _ _ (ix3 r n f) (ix3 r n ⟨0, Nat.one_pos⟩) (fun a => ?_)).trans ?_
  · match a with
    | ⟨0, _⟩ => show r.val = if (32 : Nat) = 1 then 0 else r.val; rw [if_neg (by decide)]
    | ⟨1, _⟩ => show n.val = if (128 : Nat) = 1 then 0 else n.val; rw [if_neg (by decide)]
    | ⟨2, _⟩ => show 0 = if (1 : Nat) = 1 then 0 else f.val; rw [if_pos rfl]
  · exact scale_apply v0 _ _ _ _ r n

end Cert.MaskScale.Kernel

end
-- ==== Proof.Blocks.lean ====
/-
  From the grid's blocks to the whole array.

  Grid point t works on rows 32 t … 32 t + 31: it is handed those rows of the flattened x and of the set-size column,
  and writes the same rows of the output.  By `Payload` what it writes back is the block of ONE function of the whole
  arrays, the masked row scale `scaledRows` — each input block is read exactly where the output block sits.  Row i of the
  output lies in the block of point i / 32, so the 64 blocks cover the array, and after the last write-back the output
  array IS `scaledRows` of the two input arrays as the region found them.
-/
import proofs.«131674_j18098992185823_2_alg».proof.Proof.Gen.KernelIdeal.Frame
import proofs.«131674_j18098992185823_2_alg».proof.Proof.Payload
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.MaskScale.Kernel

open Cert.KernelIdeal Cert.KernelIdeal.Gen Cert.MaskScale

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The three index maps over the grid: the two inputs' blocks move with the output's block along the rows, and no
    window moves along the other axes. -/
theorem index_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = win0_2.index t (0 : Fin 3) ∧ win0_1.index t (1 : Fin 2) = 0
    ∧ win0_2.index t (1 : Fin 3) = 0 ∧ win0_2.index t (2 : Fin 3) = 0 :=
  (by decide +kernel : ∀ t : Fin grid0.N, _)

/-- Every block of 32 rows is some point's. -/
theorem index_onto : ∀ q : Fin 64, ∃ t : Fin cfg0.N, win0_2.index t = ![q.val, 0, 0] :=
  (by decide +kernel : ∀ q : Fin 64, ∃ t : Fin grid0.N, win0_2.index t = ![q.val, 0, 0])

/-- What point `t` writes back is block `t` of the masked row scale of the two arrays the region reads. -/
theorem flushed_eq (c : Dev nD) (t : Fin cfg0.N) :
    (dats m 0 c).flushed 2 t
      = ((cfg0.win 2).blk t).view.read (Elt Ideal) (scaledRows (V m c main_v0) (V m c main_v1)) := by
  show (cfg0.win 2).cut (grid0.coords t) ((dats m 0 c).after 2 t) = _
  rw [after0_2]
  unfold out0_2
  rw [View.canon_unit_zero zero3]
  simp only [View.ld_unit_zero (S := S32x128x256) zero3, View.ld_unit_zero (S := S32x1) zero2]
  obtain ⟨e0, e1, e2, e3, e4, e5, e6⟩ := index_facts t
  show (k0_pay1 (F := Ideal) (iblk m c 1 t) (iblk m c 0 t) : S32x128x256.Idx → EReal)
    = fun j : S32x128x256.Idx => scaledRows (V m c main_v0) (V m c main_v1) (((cfg0.win 2).blk t).view.emb j)
  funext j
  obtain ⟨r, n, f, rfl⟩ : ∃ (r : Fin 32) (n : Fin 128) (f : Fin 256), j = ix3 r n f := ⟨j 0, j 1, j 2, eq_ix3 j⟩
  refine (payload_apply (iblk m c 1 t) (iblk m c 0 t) r n f).trans ?_
  -- each input block is read where the output's block sits
  have h0 : ((cfg0.win 0).blk t).view.emb (ix3 r n f : S32x128x256.Idx) = ((cfg0.win 2).blk t).view.emb (ix3 r n f : S32x128x256.Idx) := by
    funext a; apply Fin.ext
    match a with
    | ⟨0, _⟩ => show win0_0.index t (0 : Fin 3) * 32 + 1 * r.val = win0_2.index t (0 : Fin 3) * 32 + 1 * r.val; omega
    | ⟨1, _⟩ => show win0_0.index t (1 : Fin 3) * 128 + 1 * n.val = win0_2.index t (1 : Fin 3) * 128 + 1 * n.val; omega
    | ⟨2, _⟩ => show win0_0.index t (2 : Fin 3) * 256 + 1 * f.val = win0_2.index t (2 : Fin 3) * 256 + 1 * f.val; omega
  have h1 : ((cfg0.win 1).blk t).view.emb (ix2 r ⟨0, Nat.one_pos⟩ : S32x1.Idx)
      = (ix2 ((((cfg0.win 2).blk t).view.emb (ix3 r n f : S32x128x256.Idx)) 0) ⟨0, Nat.one_pos⟩ : S2048x1.Idx) := by
    funext a; apply Fin.ext
    match a with
    | ⟨0, _⟩ => show win0_1.index t (0 : Fin 2) * 32 + 1 * r.val = win0_2.index t (0 : Fin 3) * 32 + 1 * r.val; omega
    | ⟨1, _⟩ => show win0_1.index t (1 : Fin 2) * 1 + 1 * 0 = 0; omega
  have h2 : ((((cfg0.win 2).blk t).view.emb (ix3 r n f : S32x128x256.Idx)) 1).val = n.val := by
    show win0_2.index t (1 : Fin 3) * 128 + 1 * n.val = n.val; omega
  have hx : (iblk m c 0 t : S32x128x256.Idx → EReal) (ix3 r n f)
      = (V m c main_v0 : S2048x128x256.Idx → EReal) (((cfg0.win 2).blk t).view.emb (ix3 r n f : S32x128x256.Idx)) := by
    show (V m c main_v0 : S2048x128x256.Idx → EReal) (((cfg0.win 0).blk t).view.emb (ix3 r n f : S32x128x256.Idx)) = _
    rw [h0]
  have hs : (iblk m c 1 t : S32x1.Idx → BitVec 32) (ix2 r ⟨0, Nat.one_pos⟩)
      = (V m c main_v1 : S2048x1.Idx → BitVec 32)
          (ix2 ((((cfg0.win 2).blk t).view.emb (ix3 r n f : S32x128x256.Idx)) 0) ⟨0, Nat.one_pos⟩ : S2048x1.Idx) := by
    show (V m c main_v1 : S2048x1.Idx → BitVec 32) (((cfg0.win 1).blk t).view.emb (ix2 r ⟨0, Nat.one_pos⟩ : S32x1.Idx)) = _
    rw [h1]
  rw [hx, hs, ← h2]
  rfl

/-- An index of the output array is in point `t`'s block iff each coordinate is in the block's range on its axis. -/
theorem mem_blk (t : Fin cfg0.N) (i : S2048x128x256.Idx) :
    i ∈ ((cfg0.win 2).blk t).view.set ↔ ∀ a : Fin 3, win0_2.index t a * S32x128x256.size a ≤ (i a).val
      ∧ (i a).val < win0_2.index t a * S32x128x256.size a + S32x128x256.size a := by
  show i ∈ ((View.whole main_v2).slice (win0_2.rect t)).set ↔ _
  rw [View.set_slice_whole, Rect.mem_set_unit]
  exact Iff.rfl

/-- Row `i 0` lies in the block of point `i 0 / 32`: the blocks cover the output array. -/
theorem cover (i : S2048x128x256.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  have hi2 : (i 2).val < 256 := (i 2).isLt
  obtain ⟨t, ht⟩ := index_onto ⟨(i 0).val / 32, by omega⟩
  have q0 : win0_2.index t (0 : Fin 3) = (i 0).val / 32 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The output array after the last write-back: the masked row scale of the two arrays the region reads. -/
theorem final (c : Dev nD) : (dats m 0 c).arrAt 2 cfg0.N = scaledRows (V m c main_v0) (V m c main_v1) :=
  (dats m 0 c).arrAt_eq_of_cover 2 _ (fun t _ => flushed_eq m c t) cover

end Cert.MaskScale.Kernel

end
-- ==== Proof.Reshape.lean ====
/-
  The two layouts of the rows.

  The kernel's program sees the [32, 64] rows laid end to end: row (b, t) is row 64 * b + t of a [2048, 128, 256]
  array, its set size entry 64 * b + t of a [2048, 1] column, and the result is laid back to [32, 64, 128, 256] at
  the end.  All three re-layouts keep the row-major position of every element, and the masked row scale only looks at
  an element's row, node and value, so scaling the flattened rows and laying the result back is scaling the rows where
  they are.
-/
import proofs.«131674_j18098992185823_2_alg».proof.Proof.Spec
import Idealize.ShloMosaic.Lib.Pipeline.Value

noncomputable section

open Idealize.ShloMosaic Idealize.ShloMosaic.ValueIdx

namespace Cert.MaskScale

/-- Flatten the rows, scale them, lay the result back: the masked row scale of the unflattened arguments. -/
theorem scaledRows_flatten (x : (⟨4, ![32, 64, 128, 256]⟩ : Shape).Idx → EReal) (size : (⟨2, ![32, 64]⟩ : Shape).Idx → BitVec 32)
    (hx : (⟨4, ![32, 64, 128, 256]⟩ : Shape).ShapeCasts ⟨3, ![2048, 128, 256]⟩)
    (hs : (⟨2, ![32, 64]⟩ : Shape).ShapeCasts ⟨2, ![2048, 1]⟩)
    (ho : (⟨3, ![2048, 128, 256]⟩ : Shape).ShapeCasts ⟨4, ![32, 64, 128, 256]⟩) :
    shapeCast ⟨4, ![32, 64, 128, 256]⟩
        (scaledRows (shapeCast ⟨3, ![2048, 128, 256]⟩ x hx) (shapeCast ⟨2, ![2048, 1]⟩ size hs)) ho
      = scaled x size := by
  funext i
  obtain ⟨b, t, n, f, rfl⟩ : ∃ (b : Fin 32) (t : Fin 64) (n : Fin 128) (f : Fin 256), i = ix4 b t n f :=
    ⟨i 0, i 1, i 2, i 3, eq_ix4 i⟩
  have hR : 64 * b.val + t.val < 2048 := by have := b.isLt; have := t.isLt; omega
  -- the flattened position of row (b, t)
  refine (shapeCast_apply _ ho (ix4 b t n f) (ix3 ⟨64 * b.val + t.val, hR⟩ n f) ?_).trans ?_
  · rw [Shape.rowMajor_val_three, Shape.rowMajor_val_four]
    show ((64 * b.val + t.val) * 128 + n.val) * 256 + f.val = ((b.val * 64 + t.val) * 128 + n.val) * 256 + f.val
    omega
  · show shapeCast ⟨3, ![2048, 128, 256]⟩ x hx (ix3 ⟨64 * b.val + t.val, hR⟩ n f)
        * scaleAt (shapeCast ⟨2, ![2048, 1]⟩ size hs (ix2 ⟨64 * b.val + t.val, hR⟩ ⟨0, Nat.one_pos⟩)) n.val
      = x (ix4 b t n f) * scaleAt (size (ix2 b t)) n.val
    have ex : shapeCast ⟨3, ![2048, 128, 256]⟩ x hx (ix3 ⟨64 * b.val + t.val, hR⟩ n f) = x (ix4 b t n f) := by
      refine shapeCast_apply x hx _ (ix4 b t n f) ?_
      rw [Shape.rowMajor_val_three, Shape.rowMajor_val_four]
      show ((b.val * 64 + t.val) * 128 + n.val) * 256 + f.val = ((64 * b.val + t.val) * 128 + n.val) * 256 + f.val
      omega
    have es : shapeCast ⟨2, ![2048, 1]⟩ size hs (ix2 ⟨64 * b.val + t.val, hR⟩ ⟨0, Nat.one_pos⟩) = size (ix2 b t) := by
      refine shapeCast_apply size hs _ (ix2 b t) ?_
      rw [Shape.rowMajor_val_two, Shape.rowMajor_val_two]
      show b.val * 64 + t.val = (64 * b.val + t.val) * 1 + 0
      omega
    rw [ex, es]

end Cert.MaskScale

end
-- ==== Proof.KernelRun.lean ====
/-
  The kernel's program from end to end.

  Before the region the program lays the first argument's rows end to end ([32, 64, 128, 256] to [2048, 128, 256]) and
  the set sizes as a column ([32, 64] to [2048, 1]); the region leaves the masked row scale of these two in its output
  array (`Blocks.final`); after the region the program lays that array back to [32, 64, 128, 256].  By
  `Reshape.scaledRows_flatten` the result is the masked row scale of the arguments themselves.  The arguments end
  as they began.
-/
import proofs.«131674_j18098992185823_2_alg».proof.Proof.Gen.KernelIdeal.Frame
import proofs.«131674_j18098992185823_2_alg».proof.Proof.Blocks
import proofs.«131674_j18098992185823_2_alg».proof.Proof.Reshape
import Idealize.ShloMosaic.Lib.StableHlo.Run
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.MaskScale.Kernel

open Cert.KernelIdeal Cert.KernelIdeal.Gen Cert.MaskScale

variable (m : (ℓ : Loc nD τ sig) → Buf (Elt Ideal) ℓ) (ρ : Dev nD → PrngReg)

/-- The rows the region reads are the first argument's, laid end to end. -/
theorem V_rows (c : Dev nD) : (V m c main_v0 : S2048x128x256.Idx → EReal)
    = shapeCast S2048x128x256 (m ((c : Thread nD τ).loc main_arg0)) shapeCasts_S32x64x128x256_S2048x128x256 := by
  show StableHlo.after hostOps0 (fun b => m (c, b)) (Proc.devRef .tc main_v0) = _
  after_results
  rfl

/-- The column of set sizes the region reads is the second argument's entries, laid end to end. -/
theorem V_sizes (c : Dev nD) : (V m c main_v1 : S2048x1.Idx → BitVec 32)
    = shapeCast S2048x1 (m ((c : Thread nD τ).loc main_arg1)) shapeCasts_S32x64_S2048x1 := by
  show StableHlo.after hostOps0 (fun b => m (c, b)) (Proc.devRef .tc main_v1) = _
  after_results
  rfl

/-- The program's result is the region's output array laid back to [32, 64, 128, 256]. -/
theorem tail_eq (c : Dev nD) :
    (Pipeline.afterTail₀ cfgs (dats m) 0 (V0 m) [hostOps1] c main_v3 : S32x64x128x256.Idx → EReal)
      = shapeCast S32x64x128x256 ((dats m 0 c).arrAt 2 cfg0.N) shapeCasts_S2048x128x256_S32x64x128x256 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  rw [hw]
  rfl

/-- The program's result is the masked row scale of its two arguments. -/
theorem result_eq (c : Dev nD) :
    (Pipeline.afterTail₀ cfgs (dats m) 0 (V0 m) [hostOps1] c main_v3 : S32x64x128x256.Idx → EReal)
      = scaled (m ((c : Thread nD τ).loc main_arg0)) (m ((c : Thread nD τ).loc main_arg1)) := by
  rw [tail_eq, final, V_rows, V_sizes]
  exact scaledRows_flatten _ _ _ _ _

/-- Every weakly fair execution of the kernel's program terminates with the result at the masked row scale of the
    arguments, and the arguments as they were. -/
theorem run : θ_run defs (onTc (τ := τ) (main (F := Ideal))) ⟨m, fun _ => 0, ρ⟩ fun r => ∀ c : Dev nD,
      r.2.mem ((c.tc : Thread nD τ).loc main_v3)
        = scaled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.MaskScale.Kernel

end
-- ==== Proof.lean ====
/-
  The masked row scale: a kernel against its reference, over the extended reals.

  Both programs take x of shape [32, 64, 128, 256] and a [32, 64] table of signed 32-bit set sizes and return

      result[b, t, n, f] = x[b, t, n, f] * (if n <ₛ size[b, t] then c else 0),        c the float word 0x3F8CCCCD.

  The reference builds the scale as the comparison's bit, read as 0 or 1, times c, and multiplies x by it.  The kernel
  lays the rows end to end, hands 32 of them with their set sizes to each of 64 grid points, chooses c or zero by the
  comparison there, multiplies, and lays the result back.  The two agree because 1 * c = c and 0 * c = 0 on the extended
  reals (`Spec.bit_mul`) and because laying rows end to end and back moves no element (`Reshape.scaledRows_flatten`).
  No finiteness of x is needed: x enters both sides as the same factor of one product.

  The modules: `Spec` (the function and the law), `RefRead` (the reference is the function), `Payload` (what one grid
  point stores), `Blocks` (the 64 blocks make the whole array), `Reshape` (the two layouts), `KernelRun` (the kernel's
  program from end to end).  Here they are put together: each program runs, keeps its arguments, and the two results
  are one array.  The idealization rewrote nothing, so what it must preserve is `True`.
-/
import proofs.«131674_j18098992185823_2_alg».proof.Defs
import proofs.«131674_j18098992185823_2_alg».proof.Proof.Gen.Kernel
import proofs.«131674_j18098992185823_2_alg».proof.Proof.Gen.Kernel.Skeleton
import proofs.«131674_j18098992185823_2_alg».proof.Proof.Gen.Kernel.Launch
import proofs.«131674_j18098992185823_2_alg».proof.Proof.Gen.Kernel.Points
import proofs.«131674_j18098992185823_2_alg».proof.Proof.Gen.Kernel.Frame
import proofs.«131674_j18098992185823_2_alg».proof.Proof.Gen.KernelIdeal
import proofs.«131674_j18098992185823_2_alg».proof.Proof.Gen.KernelIdeal.Skeleton
import proofs.«131674_j18098992185823_2_alg».proof.Proof.Gen.KernelIdeal.Launch
import proofs.«131674_j18098992185823_2_alg».proof.Proof.Gen.KernelIdeal.Points
import proofs.«131674_j18098992185823_2_alg».proof.Proof.Gen.KernelIdeal.Frame
import proofs.«131674_j18098992185823_2_alg».proof.Proof.Gen.ReferenceIdeal
import proofs.«131674_j18098992185823_2_alg».proof.Proof.Gen.ReferenceIdeal.Run
import proofs.«131674_j18098992185823_2_alg».proof.Proof.Gen.ReferenceIdeal.Read
import proofs.«131674_j18098992185823_2_alg».proof.Proof.Gen.Pre_finite_inputs
import proofs.«131674_j18098992185823_2_alg».proof.Proof.RefRead
import proofs.«131674_j18098992185823_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the masked row scale of those arguments. -/
theorem algebraic : Cert.algebraic_KernelIdeal_ReferenceIdeal := by
  intro m ρ m' ρ' _ hagree
  refine ⟨fun c => Cert.MaskScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.MaskScale.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.MaskScale.Ref.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
